-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x480x640 : Shape := ⟨4, ![32, 1, 480, 640]⟩
abbrev S_ : Shape := ⟨0, ![]⟩

class Facts : Prop where
  bcast_S_S32x1x480x640 : S_.BroadcastsInDim S32x1x480x640 (![] : Fin 0 → Fin S32x1x480x640.rank)
  reducesTo_S32x1x480x640_S_d0_1_2_3 : S32x1x480x640.ReducesTo [0, 1, 2, 3] S_
  h_S_ : 0 < S_.numel

variable [Facts]

def fn {F : FTy → Type} [FloatOps F] (main_arg0 : FVec F S32x1x480x640 .f32) (main_arg1 : FVec F S32x1x480x640 .f32) : IVec S_ 1 :=
  let main_v0 : FVec F S32x1x480x640 .f32 := Host.absf main_arg0
  let main_cst : FVec F S_ .f32 := constant S_ .f32 0x7F800000#32
  let main_v1 : FVec F S32x1x480x640 .f32 := broadcastInDim S32x1x480x640 ![] bcast_S_S32x1x480x640 main_cst
  let main_v2 : IVec S32x1x480x640 1 := cmpf .olt main_v0 main_v1
  let main_c : IVec S_ 1 := constantI S_ 1 1#1
  let main_v3 : IVec S_ 1 := (fun x v => Host.reduce IntOp.andi x v reducesTo_S32x1x480x640_S_d0_1_2_3 h_S_) main_v2 main_c
  let main_v4 : FVec F S32x1x480x640 .f32 := Host.absf main_arg1
  let main_cst_0 : FVec F S_ .f32 := constant S_ .f32 0x7F800000#32
  let main_v5 : FVec F S32x1x480x640 .f32 := broadcastInDim S32x1x480x640 ![] bcast_S_S32x1x480x640 main_cst_0
  let main_v6 : IVec S32x1x480x640 1 := cmpf .olt main_v4 main_v5
  let main_c_1 : IVec S_ 1 := constantI S_ 1 1#1
  let main_v7 : IVec S_ 1 := (fun x v => Host.reduce IntOp.andi x v reducesTo_S32x1x480x640_S_d0_1_2_3 h_S_) main_v6 main_c_1
  let main_v8 : IVec S_ 1 := andi main_v3 main_v7
  main_v8
-- ==== Kernel.lean ====
abbrev S32x1x480x640 : Shape := ⟨4, ![32, 1, 480, 640]⟩
abbrev S32x480x640 : Shape := ⟨3, ![32, 480, 640]⟩
abbrev S32x1x128 : Shape := ⟨3, ![32, 1, 128]⟩
abbrev S2x480x640 : Shape := ⟨3, ![2, 480, 640]⟩
abbrev S2x1x128 : Shape := ⟨3, ![2, 1, 128]⟩
abbrev S1x480x640 : Shape := ⟨3, ![1, 480, 640]⟩
abbrev S480x640 : Shape := ⟨2, ![480, 640]⟩
abbrev S640 : Shape := ⟨1, ![640]⟩
abbrev S1x640 : Shape := ⟨2, ![1, 640]⟩
abbrev S1 : Shape := ⟨1, ![1]⟩
abbrev S1x1 : Shape := ⟨2, ![1, 1]⟩
abbrev S1x128 : Shape := ⟨2, ![1, 128]⟩
abbrev S1x1x128 : Shape := ⟨3, ![1, 1, 128]⟩
abbrev S32x1x1 : Shape := ⟨3, ![32, 1, 1]⟩
abbrev S32 : Shape := ⟨1, ![32]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S32x1x480x640, .f32⟩
  | .hbm, ⟨1, _⟩ => ⟨S32x1x480x640, .f32⟩
  | .hbm, ⟨2, _⟩ => ⟨S32x480x640, .f32⟩
  | .hbm, ⟨3, _⟩ => ⟨S32x480x640, .f32⟩
  | .hbm, ⟨4, _⟩ => ⟨S32x1x128, .f32⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2x480x640, .f32⟩
  | .local _ .vmem, ⟨1, _⟩ => ⟨S2x480x640, .f32⟩
  | .local _ .vmem, ⟨2, _⟩ => ⟨S2x480x640, .f32⟩
  | .local _ .vmem, ⟨3, _⟩ => ⟨S2x480x640, .f32⟩
  | .local _ .vmem, ⟨4, _⟩ => ⟨S2x1x128, .f32⟩
  | .local _ .vmem, ⟨5, _⟩ => ⟨S2x1x128, .f32⟩
  | _, _ => ⟨S32x1x480x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x480x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x480x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1x480x640_S32x480x640 : S32x1x480x640.ShapeCasts S32x480x640
  inb_S2x480x640_S1x480x640_0_0_0 : ∀ a, (![0, 0, 0] : Fin 3 → Nat) a + S1x480x640.size a ≤ S2x480x640.size a
  h_S1x480x640 : 0 < S1x480x640.numel
  shapeCasts_S1x480x640_S480x640 : S1x480x640.ShapeCasts S480x640
  natLt_1_32 : 1 < 32
  reduces_S480x640_S640 : S480x640.Reduces [0] S640
  shapeCasts_S640_S1x640 : S640.ShapeCasts S1x640
  reduces_S1x640_S1 : S1x640.Reduces [1] S1
  shapeCasts_S1_S1x1 : S1.ShapeCasts S1x1
  shapeCasts_S1x1_S1x1 : S1x1.ShapeCasts S1x1
  broadcasts_S1x1_S1x128 : S1x1.Broadcasts S1x128
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  shapeCasts_S1x128_S1x1x128 : S1x128.ShapeCasts S1x1x128
  inb_S2x480x640_S1x480x640_1_0_0 : ∀ a, (![1, 0, 0] : Fin 3 → Nat) a + S1x480x640.size a ≤ S2x480x640.size a
  inb_S2x1x128_S1x1x128_1_0_0 : ∀ a, (![1, 0, 0] : Fin 3 → Nat) a + S1x1x128.size a ≤ S2x1x128.size a
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x480x640.size a ≤ S32x480x640.size a
  hwx0_0 : ∀ i : grid0.Coords, EltTy.bits .f32 = 32 ∨ (Rect.block (s := S32x480x640) S2x480x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x480x640.size a ≤ S32x480x640.size a
  hwx0_1 : ∀ i : grid0.Coords, EltTy.bits .f32 = 32 ∨ (Rect.block (s := S32x480x640) S2x480x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x128.size a ≤ S32x1x128.size a
  hwx0_2 : ∀ i : grid0.Coords, EltTy.bits .f32 = 32 ∨ (Rect.block (s := S32x1x128) S2x1x128.size (cc0_transform_2 i) (hinb0_2 i)).WholeWords (EltTy.packing .f32)

variable [Facts₀]

abbrev win0_0 : Pipeline.Window sig grid0 :=
  Pipeline.Window.ofSpec (Memref.whole main_v0) S2x480x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x480x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x480x640 : Shape := ⟨4, ![32, 1, 480, 640]⟩
abbrev S32x307200 : Shape := ⟨2, ![32, 307200]⟩
abbrev S_ : Shape := ⟨0, ![]⟩
abbrev S32 : Shape := ⟨1, ![32]⟩

abbrev nBuf : Space → Nat
  | .hbm => 58
  | .vmem => 0
  | .smem => 0
  | _ => 0

abbrev bufTy : (tb : Table) → Fin (tcTables nBuf tb) → BufTy
  | .hbm, ⟨0, _⟩ => ⟨S32x1x480x640, .f32⟩
  | .hbm, ⟨1, _⟩ => ⟨S32x1x480x640, .f32⟩
  | .hbm, ⟨2, _⟩ => ⟨S32x307200, .f32⟩
  | .hbm, ⟨3, _⟩ => ⟨S32x307200, .f32⟩
  | .hbm, ⟨4, _⟩ => ⟨S_, .f32⟩
  | .hbm, ⟨5, _⟩ => ⟨S32x307200, .f32⟩
  | .hbm, ⟨6, _⟩ => ⟨S32x307200, .i1⟩
  | .hbm, ⟨7, _⟩ => ⟨S_, .f32⟩
  | .hbm, ⟨8, _⟩ => ⟨S_, .f32⟩
  | .hbm, ⟨9, _⟩ => ⟨S32x307200, .f32⟩
  | .hbm, ⟨10, _⟩ => ⟨S32x307200, .f32⟩
  | .hbm, ⟨11, _⟩ => ⟨S_, .f32⟩
  | .hbm, ⟨12, _⟩ => ⟨S32x307200, .f32⟩
  | .hbm, ⟨13, _⟩ => ⟨S32x307200, .f32⟩
  | .hbm, ⟨14, _⟩ => ⟨S32x307200, .f32⟩
  | .hbm, ⟨15, _⟩ => ⟨S_, .f32⟩
  | .hbm, ⟨16, _⟩ => ⟨S_, .f32⟩
  | .hbm, ⟨17, _⟩ => ⟨S32x307200, .f32⟩
  | .hbm, ⟨18, _⟩ => ⟨S32x307200, .f32⟩
  | .hbm, ⟨19, _⟩ => ⟨S_, .f32⟩
  | .hbm, ⟨20, _⟩ => ⟨S32x307200, .f32⟩
  | .hbm, ⟨21, _⟩ => ⟨S32x307200, .f32⟩
  | .hbm, ⟨22, _⟩ => ⟨S32x307200, .f32⟩
  | .hbm, ⟨23, _⟩ => ⟨S32x307200, .f32⟩
  | .hbm, ⟨24, _⟩ => ⟨S_, .f32⟩
  | .hbm, ⟨25, _⟩ => ⟨S_, .f32⟩
  | .hbm, ⟨26, _⟩ => ⟨S32x307200, .f32⟩
  | .hbm, ⟨27, _⟩ => ⟨S32x307200, .f32⟩
  | .hbm, ⟨28, _⟩ => ⟨S32x307200, .i32⟩
  | .hbm, ⟨29, _⟩ => ⟨S_, .i32⟩
  | .hbm, ⟨30, _⟩ => ⟨S32, .i32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32x307200, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .i1⟩
  | .hbm, ⟨50, _⟩ => ⟨S_, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S32x1x480x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_call2_v0 : Ref sig .tc := ⟨.hbm, 25, rfl⟩
abbrev main_call2_v1 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_call3_v0 : Ref sig .tc := ⟨.hbm, 51, rfl⟩
abbrev main_call3_v1 : Ref sig .tc := ⟨.hbm, 52, rfl⟩
abbrev main_v30 : Ref sig .tc := ⟨.hbm, 53, rfl⟩
abbrev main_cst_11 : Ref sig .tc := ⟨.hbm, 54, rfl⟩
abbrev main_v31 : Ref sig .tc := ⟨.hbm, 55, rfl⟩
abbrev main_cst_12 : Ref sig .tc := ⟨.hbm, 56, rfl⟩
abbrev main_v32 : Ref sig .tc := ⟨.hbm, 57, rfl⟩

abbrev nD : Nat := 1
abbrev τ : Topo := Topo.v7x

variable {F : FTy → Type} [FloatOps F]

class Facts₀ : Prop where
  shapeCasts_S32x1x480x640_S32x307200 : S32x1x480x640.ShapeCasts S32x307200
  bcast_S_S32x307200 : S_.BroadcastsInDim S32x307200 (![] : Fin 0 → Fin S32x307200.rank)
  natLt_1_32 : 1 < 32
  reducesTo_S32x307200_S32_d1 : S32x307200.ReducesTo [1] S32
  h_S_ : 0 < S_.numel
  bcast_S_S32 : S_.BroadcastsInDim S32 (![] : Fin 0 → Fin S32.rank)
  reducesTo_S32_S_d0 : S32.ReducesTo [0] S_

variable [Facts₀]

class Facts : Prop extends Facts₀ where

variable [Facts]
-- ==== Proof.Consts.lean ====
/- The three float constants both programs spell, as the extended reals their words denote: +0.0 is 0, 1.0 is 1, and the
   guard ε = 9.99999997e-7 is the positive dyadic 8796093 / 2^43 (sign 0, exponent 107 - 127, significand 1 + 407485 / 2^23).
   Only its sign matters below: t + ε is positive wherever t is. -/
import Idealize.ShloMosaic.PureOps.Ideal

noncomputable section

namespace Cert.Consts

open Idealize.ShloMosaic

/-- +0.0 denotes 0. -/
theorem ofBits_zero : Ideal.ofBits .f32 0x00000000#32 = 0 := by
  simp [Ideal.ofBits, Ideal.ieee]

/-- 1.0 denotes 1. -/
theorem ofBits_one : Ideal.ofBits .f32 0x3F800000#32 = ((1 : ℝ) : EReal) := by
  simp [Ideal.ofBits, Ideal.ieee, -EReal.coe_mul]; norm_num

/-- The guard's exact value. -/
theorem ofBits_eps : Ideal.ofBits .f32 0x358637BD#32 = ((8796093 / 8796093022208 : ℝ) : EReal) := by
  simp [Ideal.ofBits, Ideal.ieee, -EReal.coe_mul]; norm_num

/-- The guard as a positive real. -/
def eps : ℝ := 8796093 / 8796093022208

theorem eps_pos : 0 < eps := by unfold eps; norm_num

theorem ofBits_eps' : Ideal.ofBits .f32 0x358637BD#32 = ((eps : ℝ) : EReal) := ofBits_eps

end Cert.Consts

end
-- ==== Proof.LibWordCount.lean ====
/- General lemmas, no program in sight.
   (1) Counting by 32-bit addition: a fold of two's-complement addition from 0 over a finite family of words each 0 or 1,
       fewer than 2^31 of them, never wraps, so read as a signed integer it is the sum of the words read as signed
       integers (the number of ones).
   (2) The coercion of a finite sum of reals to the extended reals is the sum of the coercions.
   (3) A sum over the flat positions k < m * n of a quantity that depends on (k / n, k % n) is the double sum over rows and
       columns, in either order: any commutative monoid. -/
import Idealize.ShloMosaic.PureOps.Reduce
import Idealize.ShloMosaic.PureOps.Ideal

noncomputable section

namespace Cert.LibWordCount

open Idealize.ShloMosaic

/-- The fold, read unsigned, is the sum of the words read unsigned: no wrap below 2^31 ones. -/
theorem toNat_fold_addi {ι : Type} [DecidableEq ι] (s : Finset ι) (f : ι → BitVec 32)
    (hf : ∀ k, (f k).toNat ≤ 1) (hs : s.card < 2 ^ 31) :
    (s.fold IntOp.addi 0#32 f).toNat = ∑ k ∈ s, (f k).toNat ∧ (s.fold IntOp.addi 0#32 f).toNat ≤ s.card := by
  induction s using Finset.induction_on with
  | empty => simp
  | insert a s ha ih =>
    have hc : s.card < 2 ^ 31 := by
      have := Finset.card_insert_of_notMem ha; omega
    obtain ⟨e, le⟩ := ih hc
    have hcard := Finset.card_insert_of_notMem ha
    have h1 := hf a
    rw [Finset.fold_insert ha, Finset.sum_insert ha]
    generalize s.fold IntOp.addi 0#32 f = r at e le ⊢
    have hadd : (IntOp.addi (f a) r).toNat = (f a).toNat + r.toNat := by
      show (f a + r).toNat = _
      rw [BitVec.toNat_add, Nat.mod_eq_of_lt (by omega)]
    rw [hadd, e]
    refine ⟨rfl, ?_⟩
    rw [← e]; omega

/-- A word below 2^31 read signed is itself read unsigned. -/
theorem toInt_of_lt (x : BitVec 32) (h : x.toNat < 2 ^ 31) : x.toInt = (x.toNat : ℤ) := by
  rw [BitVec.toInt_eq_toNat_cond, if_pos (by omega)]

/-- The fold read signed is the sum of the words read signed. -/
theorem toInt_fold_addi {ι : Type} [DecidableEq ι] (s : Finset ι) (f : ι → BitVec 32)
    (hf : ∀ k, (f k).toNat ≤ 1) (hs : s.card < 2 ^ 31) :
    (s.fold IntOp.addi 0#32 f).toInt = ∑ k ∈ s, (f k).toInt := by
  obtain ⟨e, le⟩ := toNat_fold_addi s f hf hs
  rw [toInt_of_lt _ (by omega), e, Nat.cast_sum]
  exact Finset.sum_congr rfl fun k _ => (toInt_of_lt _ (by have := hf k; omega)).symm

/-- The coercion to the extended reals goes through a finite sum. -/
theorem coe_sum {ι : Type} (s : Finset ι) (g : ι → ℝ) :
    ((∑ k ∈ s, g k : ℝ) : EReal) = ∑ k ∈ s, ((g k : ℝ) : EReal) := by
  classical
  induction s using Finset.induction_on with
  | empty => simp
  | insert a s ha ih => rw [Finset.sum_insert ha, Finset.sum_insert ha, EReal.coe_add, ih]

/-- A sum over flat positions as the double sum over (row, column), columns outermost. -/
theorem sum_flat {M : Type} [AddCommMonoid M] (m n N : ℕ) (hN : N = m * n) (hn : 0 < n) (g : Fin N → M) (f : Fin m → Fin n → M)
    (hg : ∀ (k : Fin N) (h1 : k.val / n < m) (h2 : k.val % n < n), g k = f ⟨k.val / n, h1⟩ ⟨k.val % n, h2⟩) :
    ∑ k, g k = ∑ w, ∑ h, f h w := by
  subst hN
  calc ∑ k, g k = ∑ x : Fin m × Fin n, f x.1 x.2 :=
        Fintype.sum_equiv finProdFinEquiv.symm _ _ fun k => by
          rw [hg k ((Nat.div_lt_iff_lt_mul hn).2 k.isLt) (Nat.mod_lt _ hn)]; rfl
    _ = ∑ h, ∑ w, f h w := Fintype.sum_prod_type' _
    _ = ∑ w, ∑ h, f h w := Finset.sum_comm

end Cert.LibWordCount

end
-- ==== Proof.LogRatio.lean ====
/- The mathematics of the loss, on the extended reals, no program in sight.
   Per pixel, with the mask "t > 0" and the guard ε > 0:
     the kernel takes ONE logarithm of a quotient,   ldK p t = log ((sel p + ε) / (sel t + ε)),
     the reference a DIFFERENCE of two logarithms,   ldR p t = if t > 0 then log (sel p + ε) - log (sel t + ε) else 0,
   where sel x = x on the mask and 1 off it. For real p and t they agree (`ldK_eq_ldR`):
     off the mask both are log 1 = 0;
     on the mask b = t + ε is a positive real, and with a = p + ε: for a > 0, log (a / b) = log a - log b; for a ≤ 0 the
     quotient is ≤ 0 too, its logarithm is -∞, and so is (-∞) - log b.
   Per sample, `sample ld p t` is the score of the three sums over the pixels — of ld, of ld², and of the mask as 0 / 1 —:
     score s ss n = if n > 0 then ss / max n 1 - (1/2 · (s / max n 1)) · (s / max n 1) else 0.
   Both programs compute `sample`, with ldK and ldR for `ld`; on real inputs the two are one function (`sample_congr`). -/
import Idealize.ShloMosaic.PureOps.Ideal
import Idealize.ShloMosaic.Lib.ValueIdx
import proofs.«168483_j29085518529245_2_alg».proof.Proof.Consts
import proofs.«168483_j29085518529245_2_alg».proof.Proof.LibWordCount

noncomputable section

namespace Cert.LogLoss

open Idealize.ShloMosaic Idealize.ShloMosaic.ValueIdx Cert.Consts

local notation "𝟘" => Ideal.ofBits FTy.f32 0x00000000#32
local notation "𝟙" => Ideal.ofBits FTy.f32 0x3F800000#32
local notation "ε" => Ideal.ofBits FTy.f32 0x358637BD#32
local notation "½" => Ideal.ofBits FTy.f32 0x3F000000#32

/-- The mask bit: is t above zero. -/
def gt0 (t : EReal) : BitVec 1 := Ideal.cmp .ogt t 𝟘

/-- The kernel's pixel: one logarithm of the guarded quotient. -/
def ldK (p t : EReal) : EReal :=
  Ideal.log (Ideal.div (Scalar.select (gt0 t) p 𝟙 + ε) (Scalar.select (gt0 t) t 𝟙 + ε))

/-- The reference's pixel: the difference of the two guarded logarithms on the mask, zero off it. -/
def ldR (p t : EReal) : EReal :=
  Scalar.select (gt0 t) (Ideal.log (Scalar.select (gt0 t) p 𝟙 + ε) - Ideal.log (Scalar.select (gt0 t) t 𝟙 + ε)) 𝟘

/-- The mask as a 32-bit word (0 or 1) and as the extended real that word denotes read signed. -/
def maskW (t : EReal) : BitVec 32 := (gt0 t).setWidth 32
def maskF (t : EReal) : EReal := (((maskW t).toInt : ℝ) : EReal)

theorem gt0_coe (t : ℝ) : gt0 (t : EReal) = if 0 < t then 1#1 else 0#1 := by
  unfold gt0 Ideal.cmp
  rw [ofBits_zero]
  by_cases h : 0 < t
  · rw [if_pos h]
    have : (0 : EReal) < (t : EReal) := by exact_mod_cast h
    simp [this]
  · rw [if_neg h]
    have : ¬ (0 : EReal) < (t : EReal) := by exact_mod_cast h
    simp [this]

/-- The mask word is 0 or 1. -/
theorem maskW_le (t : EReal) : (maskW t).toNat ≤ 1 := by
  unfold maskW
  rcases BitVec.eq_zero_or_eq_one (gt0 t) with h | h <;> rw [h] <;> decide

/-- THE LAW: on real inputs one logarithm of the quotient is the difference of the logarithms, the -∞ corner included. -/
theorem ldK_eq_ldR (p t : ℝ) : ldK (p : EReal) (t : EReal) = ldR (p : EReal) (t : EReal) := by
  unfold ldK ldR
  rw [gt0_coe, ofBits_one, ofBits_eps', ofBits_zero]
  have he := eps_pos
  by_cases ht : 0 < t
  · rw [if_pos ht]
    simp only [select_one]
    have hb : 0 < t + eps := by linarith
    rw [← EReal.coe_add, ← EReal.coe_add, Ideal.div_coe hb.ne', ← EReal.coe_mul]
    simp only [Ideal.log_coe]
    by_cases ha : p + eps ≤ 0
    · have hq : (p + eps) * (1 / (t + eps)) ≤ 0 := mul_nonpos_of_nonpos_of_nonneg ha (by positivity)
      rw [if_pos hq, if_pos ha, if_neg (not_le.2 hb)]
      exact (EReal.bot_sub _).symm
    · have ha' : 0 < p + eps := not_le.1 ha
      have hq : ¬ (p + eps) * (1 / (t + eps)) ≤ 0 := not_le.2 (by positivity)
      rw [if_neg hq, if_neg ha, if_neg (not_le.2 hb), ← EReal.coe_sub, mul_one_div, Real.log_div ha'.ne' hb.ne']
  · rw [if_neg ht]
    simp only [select_zero]
    have h1 : (0 : ℝ) < 1 + eps := by linarith
    rw [← EReal.coe_add, Ideal.div_coe h1.ne', ← EReal.coe_mul, mul_one_div, div_self h1.ne',
      Ideal.log_coe, if_neg (by norm_num : ¬ (1 : ℝ) ≤ 0), Real.log_one, EReal.coe_zero]

/-- The per-sample score of the three sums. -/
def score (s ss n : EReal) : EReal :=
  Scalar.select (Ideal.cmp .ogt n 𝟘)
    (Ideal.div ss (max n 𝟙) - (½ * Ideal.div s (max n 𝟙)) * Ideal.div s (max n 𝟙)) 𝟘

/-- One sample's loss from its 480 × 640 pixels, for either per-pixel form. -/
def sample (ld : EReal → EReal → EReal) (p t : Fin 480 → Fin 640 → EReal) : EReal :=
  score (∑ w, ∑ h, ld (p h w) (t h w)) (∑ w, ∑ h, ld (p h w) (t h w) * ld (p h w) (t h w)) (∑ w, ∑ h, maskF (t h w))

/-- On real pixels the two forms give one sample loss. -/
theorem sample_congr (p t : Fin 480 → Fin 640 → EReal)
    (hp : ∀ h w, ∃ r : ℝ, p h w = (r : EReal)) (ht : ∀ h w, ∃ r : ℝ, t h w = (r : EReal)) :
    sample ldK p t = sample ldR p t := by
  have e : ∀ h w, ldK (p h w) (t h w) = ldR (p h w) (t h w) := fun h w => by
    obtain ⟨a, ha⟩ := hp h w
    obtain ⟨b, hb⟩ := ht h w
    rw [ha, hb]; exact ldK_eq_ldR a b
  unfold sample
  simp only [e]

end Cert.LogLoss

end
-- ==== Proof.KerBody.lean ====
/- The kernel's body at one grid point: a block of two images, each reduced to its sample loss and splat over 128 lanes.
   Both halves of the body are ONE vector computation on a 1 × 480 × 640 image pair (`lossRow`): the per-pixel logarithm of
   the guarded quotient, its square and the mask as 0 / 1, each summed down the 480 rows and then along the 640 columns, the
   three totals scored, the score broadcast. The body's two stored payloads are `lossRow` of the two images, by unfolding
   (the second arranges its lines differently; the operations are the same). Read at any lane, `lossRow` is the sample loss
   `sample ldK` of the image's pixels: a total of a 480 × 640 array is the double sum, columns outermost. The block the
   body leaves is then, at (s, 0, l), the sample loss of image s of the two input blocks. -/
import proofs.«168483_j29085518529245_2_alg».proof.Proof.Gen.KernelIdeal.Frame
import proofs.«168483_j29085518529245_2_alg».proof.Proof.LogRatio
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KerBody

open Cert.KernelIdeal Cert.KernelIdeal.Gen Idealize.ShloMosaic Idealize.ShloMosaic.ValueIdx Cert.LogLoss

/-- The leading coordinate of a rank-3 index, typed by its extent. -/
abbrev lead {n a b : ℕ} (i : (⟨3, ![n, a, b]⟩ : Shape).Idx) : Fin n := i 0

/-! ## The vector computation of one image pair -/

/-- The total of a 480 × 640 array as the kernel takes it: down the rows, then along the columns, as a 1 × 1 array. -/
def tot (v : FVec Ideal S480x640 .f32) : FVec Ideal S1x1 .f32 :=
  shapeCast S1x1 (multiReduction .add [1] S1 (shapeCast S1x640 (multiReduction .add [0] S640 v 0x00000000#32
    reduces_S480x640_S640 (.inl rfl) rfl) shapeCasts_S640_S1x640) 0x00000000#32 reduces_S1x640_S1 (.inl rfl) rfl) shapeCasts_S1_S1x1

/-- The mask of an image as 0 / 1 floats. -/
def maskV (v2 : Vec Ideal S1x480x640 .f32) : FVec Ideal S480x640 .f32 :=
  sitofp .f32 (extui 32 (k0_pay8 v2) natLt_1_32)

/-- The score of three 1 × 1 totals. -/
def scoreV (s ss n : FVec Ideal S1x1 .f32) : FVec Ideal S1x1 .f32 :=
  select (cmpf .ogt n (broadcast S1x1 (Scalar.ofBits .f32 0x00000000#32)))
    (subf (divf ss (maximumf n (broadcast S1x1 (Scalar.ofBits .f32 0x3F800000#32))))
      (mulf (mulf (broadcast S1x1 (Scalar.ofBits .f32 0x3F000000#32)) (divf s (maximumf n (broadcast S1x1 (Scalar.ofBits .f32 0x3F800000#32)))))
        (divf s (maximumf n (broadcast S1x1 (Scalar.ofBits .f32 0x3F800000#32))))))
    (broadcast S1x1 (Scalar.ofBits .f32 0x00000000#32))

/-- A 1 × 1 value splat over the 128 lanes of a 1 × 1 × 128 row. -/
def splat (r : FVec Ideal S1x1 .f32) : FVec Ideal S1x1x128 .f32 :=
  shapeCast S1x1x128 (broadcastTo S1x128 (shapeCast S1x1 r shapeCasts_S1x1_S1x1) broadcasts_S1x1_S1x128) shapeCasts_S1x128_S1x1x128

/-- One image pair's stored row. -/
def lossRow (v0 v2 : Vec Ideal S1x480x640 .f32) : FVec Ideal S1x1x128 .f32 :=
  splat (scoreV (tot (k0_pay9 v0 v2)) (tot (mulf (k0_pay9 v0 v2) (k0_pay9 v0 v2))) (tot (maskV v2)))

/-- The first store's payload is the first image pair's row … -/
theorem first_payload (v0 v2 : Vec Ideal S1x480x640 .f32) :
    k0_pay6 (k0_pay4 v2) (k0_pay5 v0 v2) (Scalar.ofBits .f32 0x00000000#32) = lossRow v0 v2 := rfl

/-- … and the second store's the second pair's. -/
theorem second_payload (v48 v50 : Vec Ideal S1x480x640 .f32) :
    k0_pay1 (k0_pay10 v48 v50) (k0_pay11 v48 v50) (k0_pay12 v50) = lossRow v48 v50 := rfl

/-! ## Read at an index -/

/-- A column of the row sums. -/
theorem colsum (v : FVec Ideal S480x640 .f32) (w : Fin 640) :
    multiReduction .add [0] S640 v 0x00000000#32 reduces_S480x640_S640 (.inl rfl) rfl (ix1 w) = ∑ h : Fin 480, v (ix2 h w) :=
  (Ideal.multiReduction_add_single v 0x00000000#32 reduces_S480x640_S640 (.inl rfl) rfl (ix1 w)).trans
    (Fintype.sum_congr _ _ fun h => congrArg v (funext fun a => Fin.ext (by match a with | ⟨0, _⟩ => rfl | ⟨1, _⟩ => rfl)))

/-- The sum along a one-row matrix. -/
theorem rowsum (v : FVec Ideal S1x640 .f32) (u : Fin 1) :
    multiReduction .add [1] S1 v 0x00000000#32 reduces_S1x640_S1 (.inl rfl) rfl (ix1 u) = ∑ w : Fin 640, v (ix2 (0 : Fin 1) w) :=
  (Ideal.multiReduction_add_single v 0x00000000#32 reduces_S1x640_S1 (.inl rfl) rfl (ix1 u)).trans
    (Fintype.sum_congr _ _ fun w => congrArg v (funext fun a => Fin.ext (by
      match a with
      | ⟨0, _⟩ => have := u.isLt; show u.val = 0; omega
      | ⟨1, _⟩ => rfl)))

/-- The total is the double sum, columns outermost. -/
theorem tot_apply (v : FVec Ideal S480x640 .f32) (u0 u1 : Fin 1) :
    tot v (ix2 u0 u1) = ∑ w : Fin 640, ∑ h : Fin 480, v (ix2 h w) := by
  unfold tot
  refine (shapeCast_a_1a_apply _ shapeCasts_S1_S1x1 u0 u1).trans ?_
  refine (rowsum _ u1).trans ?_
  refine Fintype.sum_congr _ _ fun w => ?_
  refine (shapeCast_a_1a_apply _ shapeCasts_S640_S1x640 (0 : Fin 1) w).trans ?_
  exact colsum v w

/-- One pixel of the logarithm array. -/
theorem ld_pix (v0 v2 : Vec Ideal S1x480x640 .f32) (h : Fin 480) (w : Fin 640) :
    k0_pay9 v0 v2 (ix2 h w) = ldK (v0 (ix3 (0 : Fin 1) h w)) (v2 (ix3 (0 : Fin 1) h w)) := by
  have e0 := shapeCast_1ab_ab_apply v0 shapeCasts_S1x480x640_S480x640 h w
  have e1 := shapeCast_1ab_ab_apply v2 shapeCasts_S1x480x640_S480x640 h w
  unfold ldK gt0
  rw [← e0, ← e1]
  rfl

/-- One pixel of the mask. -/
theorem mask_pix (v2 : Vec Ideal S1x480x640 .f32) (h : Fin 480) (w : Fin 640) :
    maskV v2 (ix2 h w) = maskF (v2 (ix3 (0 : Fin 1) h w)) := by
  have e1 := shapeCast_1ab_ab_apply v2 shapeCasts_S1x480x640_S480x640 h w
  unfold maskF maskW gt0
  rw [← e1]
  rfl

/-- The vector score at an index is the score of the three values there. -/
theorem scoreV_apply (s ss n : FVec Ideal S1x1 .f32) (i : S1x1.Idx) :
    scoreV s ss n i = score (s i) (ss i) (n i) := rfl

/-- A 1 × 1 value broadcast along a 128-lane row reads that value at every lane. -/
theorem lanes_apply (q : FVec Ideal S1x1 .f32) (u1 : Fin 1) (l : Fin 128) :
    broadcastTo S1x128 q broadcasts_S1x1_S1x128 (ix2 u1 l) = q (ix2 (0 : Fin 1) (0 : Fin 1)) :=
  broadcastTo_apply q broadcasts_S1x1_S1x128 (ix2 u1 l) (ix2 (0 : Fin 1) (0 : Fin 1))
    (fun a => by match a with | ⟨0, _⟩ => rfl | ⟨1, _⟩ => rfl)

/-- The splat reads its one value at every lane. -/
theorem splat_apply (r : FVec Ideal S1x1 .f32) (u0 u1 : Fin 1) (l : Fin 128) :
    splat r (ix3 u0 u1 l) = r (ix2 (0 : Fin 1) (0 : Fin 1)) :=
  (shapeCast_ab_1ab_apply (broadcastTo S1x128 (shapeCast S1x1 r shapeCasts_S1x1_S1x1) broadcasts_S1x1_S1x128)
      shapeCasts_S1x128_S1x1x128 u0 u1 l).trans
    ((lanes_apply (shapeCast S1x1 r shapeCasts_S1x1_S1x1) u1 l).trans
      (congrFun (Idealize.ShloMosaic.shapeCast_self r shapeCasts_S1x1_S1x1) _))

/-- THE ROW AT AN INDEX: every lane holds the sample loss of the image pair's pixels, in the one-logarithm form. -/
theorem lossRow_apply (v0 v2 : Vec Ideal S1x480x640 .f32) (x : S1x1x128.Idx) :
    lossRow v0 v2 x = sample ldK (fun h w => v0 (ix3 (0 : Fin 1) h w)) (fun h w => v2 (ix3 (0 : Fin 1) h w)) := by
  obtain ⟨u0, u1, l, rfl⟩ : ∃ (u0 : Fin 1) (u1 : Fin 1) (l : Fin 128), x = ix3 u0 u1 l := ⟨x 0, x 1, x 2, eq_ix3 x⟩
  have e1 : (∑ w : Fin 640, ∑ h : Fin 480, k0_pay9 v0 v2 (ix2 h w))
      = ∑ w : Fin 640, ∑ h : Fin 480, ldK (v0 (ix3 (0 : Fin 1) h w)) (v2 (ix3 (0 : Fin 1) h w)) :=
    Fintype.sum_congr _ _ fun w => Fintype.sum_congr _ _ fun h => ld_pix v0 v2 h w
  have e2 : (∑ w : Fin 640, ∑ h : Fin 480, mulf (k0_pay9 v0 v2) (k0_pay9 v0 v2) (ix2 h w))
      = ∑ w : Fin 640, ∑ h : Fin 480, ldK (v0 (ix3 (0 : Fin 1) h w)) (v2 (ix3 (0 : Fin 1) h w))
          * ldK (v0 (ix3 (0 : Fin 1) h w)) (v2 (ix3 (0 : Fin 1) h w)) :=
    Fintype.sum_congr _ _ fun w => Fintype.sum_congr _ _ fun h => by
      rw [mulf_apply, ld_pix]
  have e3 : (∑ w : Fin 640, ∑ h : Fin 480, maskV v2 (ix2 h w))
      = ∑ w : Fin 640, ∑ h : Fin 480, maskF (v2 (ix3 (0 : Fin 1) h w)) :=
    Fintype.sum_congr _ _ fun w => Fintype.sum_congr _ _ fun h => mask_pix v2 h w
  unfold lossRow sample
  rw [splat_apply, scoreV_apply, tot_apply, tot_apply, tot_apply, e1, e2, e3]

/-! ## The block the body leaves -/

/-- The block as one function of its index: at (s, 0, l), the sample loss of image s of the two input blocks. -/
def blockLoss (x0 x1 : Vec Ideal S2x480x640 .f32) : Vec Ideal S2x1x128 .f32 := fun y =>
  sample ldK (fun h w => x0 (ix3 (lead y) h w)) (fun h w => x1 (ix3 (lead y) h w))

/-- The image a one-image load reads, pixel by pixel. -/
theorem ld_first (X : Vec Ideal S2x480x640 .f32) (x : r0_1.shape.Idx) (h : Fin 480) (w : Fin 640) :
    View.ld X r0_0 (ix3 (0 : Fin 1) h w) = X (ix3 (lead (r0_1.emb x)) h w) := by
  show X (r0_0.idx (ix3 (0 : Fin 1) h w)) = _
  refine congrArg X (funext fun a => Fin.ext ?_)
  have hx : (x 0).val < 1 := (x 0).isLt
  match a with
  | ⟨0, _⟩ => show 0 + 1 * (0 : ℕ) = 0 + 1 * (x 0).val; omega
  | ⟨1, _⟩ => show 0 + 1 * h.val = h.val; omega
  | ⟨2, _⟩ => show 0 + 1 * w.val = w.val; omega

theorem ld_second (X : Vec Ideal S2x480x640 .f32) (x : r0_3.shape.Idx) (h : Fin 480) (w : Fin 640) :
    View.ld X r0_2 (ix3 (0 : Fin 1) h w) = X (ix3 (lead (r0_3.emb x)) h w) := by
  show X (r0_2.idx (ix3 (0 : Fin 1) h w)) = _
  refine congrArg X (funext fun a => Fin.ext ?_)
  have hx : (x 0).val < 1 := (x 0).isLt
  match a with
  | ⟨0, _⟩ => show 1 + 1 * (0 : ℕ) = 1 + 1 * (x 0).val; omega
  | ⟨1, _⟩ => show 0 + 1 * h.val = h.val; omega
  | ⟨2, _⟩ => show 0 + 1 * w.val = w.val; omega

/-- THE BLOCK: what the body leaves in the output window's buffer is `blockLoss` of the two input blocks. -/
theorem out_block (x0 x1 : Vec Ideal S2x480x640 .f32) (y : S2x1x128.Idx) :
    out0_2 x0 x1 y = blockLoss x0 x1 y := by
  unfold out0_2
  refine View.canon_apply_of_pieces (Val := Elt Ideal) (blockLoss x0 x1) _ ?_ y (cover0_2 _ _ y)
  intro p hp x
  simp only [List.mem_cons, List.mem_nil_iff, or_false] at hp
  rcases hp with rfl | rfl
  · show k0_pay1 _ _ _ x = _
    rw [second_payload, lossRow_apply]
    exact congrArg₂ (sample ldK) (funext fun h => funext fun w => ld_second x0 x h w)
      (funext fun h => funext fun w => ld_second x1 x h w)
  · show k0_pay6 _ _ _ x = _
    rw [first_payload, lossRow_apply]
    exact congrArg₂ (sample ldK) (funext fun h => funext fun w => ld_first x0 x h w)
      (funext fun h => funext fun w => ld_first x1 x h w)

end Cert.KerBody

end
-- ==== Proof.KerArray.lean ====
/- From blocks to the array. The region's output is a 32 × 1 × 128 array cut into 16 blocks of two rows; grid point t
   stages images 2t and 2t + 1 of both inputs and writes back rows 2t and 2t + 1. Every block written back is the
   restriction of ONE function of the two input arrays (`lossArr`: row s holds, at every lane, the sample loss of image
   s), the 16 blocks cover the array (row s is in block s / 2), so after the run the array IS that function. The two input
   arrays the region finds are the arguments with their unit channel axis dropped: pixel (s, h, w) is the argument's
   (s, 0, h, w). -/
import proofs.«168483_j29085518529245_2_alg».proof.Proof.KerBody
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KerArray

open Cert.KernelIdeal Cert.KernelIdeal.Gen Idealize.ShloMosaic.ValueIdx Cert.LogLoss Cert.KerBody

variable (m : (ℓ : Loc nD τ sig) → Buf (Elt Ideal) ℓ) (ρ : Dev nD → PrngReg)

/-- The output array as one function of the two input arrays: row s, every lane, the sample loss of image s. -/
def lossArr (a0 a1 : Vec Ideal S32x480x640 .f32) : Vec Ideal S32x1x128 .f32 := fun i =>
  sample ldK (fun h w => a0 (ix3 (lead i) h w)) (fun h w => a1 (ix3 (lead i) h w))

/-- The printed index maps over the grid: the three windows move together along the images, and sit at 0 on the other axes. -/
theorem idx_facts : ∀ t : Fin cfg0.N, win0_0.index t (0 : Fin 3) = win0_2.index t (0 : Fin 3)
    ∧ win0_1.index t (0 : Fin 3) = win0_2.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0
    ∧ win0_2.index t (0 : Fin 3) ≤ 15 :=
  (by decide +kernel : ∀ t : Fin grid0.N, _)

/-- Every pair of rows is some point's block. -/
theorem idx_onto : ∀ q : Fin 16, ∃ t : Fin cfg0.N, win0_2.index t = ![q.val, 0, 0] :=
  (by decide +kernel : ∀ q : Fin 16, ∃ t : Fin grid0.N, win0_2.index t = ![q.val, 0, 0])

/-- A block of two images cut out of the arrays at image offset 2q, against rows 2q and 2q + 1 of the output: the
    block's loss at row j is the array's at row i when i = 2q + j. Stated over plain arrays and index maps. -/
theorem block_of_arrays (A0 A1 : Vec Ideal S32x480x640 .f32) (x0 x1 : Vec Ideal S2x480x640 .f32)
    (e0 e1 : S2x480x640.Idx → S32x480x640.Idx) (j : S2x1x128.Idx) (i : S32x1x128.Idx) (q : ℕ)
    (hx0 : ∀ y, x0 y = A0 (e0 y)) (hx1 : ∀ y, x1 y = A1 (e1 y))
    (he0 : ∀ y, (e0 y 0).val = q * 2 + (y 0).val ∧ (e0 y 1).val = (y 1).val ∧ (e0 y 2).val = (y 2).val)
    (he1 : ∀ y, (e1 y 0).val = q * 2 + (y 0).val ∧ (e1 y 1).val = (y 1).val ∧ (e1 y 2).val = (y 2).val)
    (hi : (i 0).val = q * 2 + (j 0).val) :
    blockLoss x0 x1 j = lossArr A0 A1 i := by
  unfold blockLoss lossArr
  refine congrArg₂ (sample ldK) (funext fun h => funext fun w => ?_) (funext fun h => funext fun w => ?_)
  · rw [hx0]
    obtain ⟨a0, a1, a2⟩ := he0 (ix3 (lead j) h w)
    refine congrArg A0 (funext fun a => Fin.ext ?_)
    match a with
    | ⟨0, _⟩ => exact a0.trans hi.symm
    | ⟨1, _⟩ => exact a1
    | ⟨2, _⟩ => exact a2
  · rw [hx1]
    obtain ⟨a0, a1, a2⟩ := he1 (ix3 (lead j) h w)
    refine congrArg A1 (funext fun a => Fin.ext ?_)
    match a with
    | ⟨0, _⟩ => exact a0.trans hi.symm
    | ⟨1, _⟩ => exact a1
    | ⟨2, _⟩ => exact a2

/-- What point t writes back is the leading part of what the body left in the output buffer … -/
theorem flushed_cut (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- … which, index by index, is the buffer at the same coordinates … -/
theorem cut_apply (c : Dev nD) (t : Fin cfg0.N) (B : Vec Ideal S2x1x128 .f32) (j : ((cfg0.win 2).xblock (grid0.coords t)).Idx) :
    (cfg0.win 2).cut (grid0.coords t) B j = B ((cfg0.win 2).xinj (grid0.coords t) j) := rfl

/-- … and a block of an array read back is the array at the block's place. -/
theorem read_blk_apply (c : Dev nD) (t : Fin cfg0.N) (G : Vec Ideal S32x1x128 .f32) (j : ((cfg0.win 2).xblock (grid0.coords t)).Idx) :
    ((cfg0.win 2).blk t).view.read (Elt Ideal) G j = G (((cfg0.win 2).blk t).view.emb j) := rfl

/-- Point t's block of two images against rows 2t and 2t + 1 of the output. -/
theorem block_at (c : Dev nD) (t : Fin cfg0.N) (j : ((cfg0.win 2).xblock (grid0.coords t)).Idx) :
    blockLoss (iblk m c 0 t) (iblk m c 1 t) ((cfg0.win 2).xinj (grid0.coords t) j)
      = lossArr (V m c main_v0) (V m c main_v1) (((cfg0.win 2).blk t).view.emb j) := by
  obtain ⟨e0, e1, e2, e3, e4, e5, e6, e7, e8⟩ := idx_facts t
  exact block_of_arrays (V m c main_v0) (V m c main_v1) (iblk m c 0 t) (iblk m c 1 t)
    (fun y => ((cfg0.win 0).blk t).view.emb y) (fun y => ((cfg0.win 1).blk t).view.emb y)
    ((cfg0.win 2).xinj (grid0.coords t) j) (((cfg0.win 2).blk t).view.emb j) (win0_2.index t (0 : Fin 3))
    (fun y => rfl) (fun y => rfl)
    (fun y => ⟨by show win0_0.index t (0 : Fin 3) * 2 + 1 * (y 0).val = win0_2.index t (0 : Fin 3) * 2 + (y 0).val; omega,
      by show win0_0.index t (1 : Fin 3) * 480 + 1 * (y 1).val = (y 1).val; omega,
      by show win0_0.index t (2 : Fin 3) * 640 + 1 * (y 2).val = (y 2).val; omega⟩)
    (fun y => ⟨by show win0_1.index t (0 : Fin 3) * 2 + 1 * (y 0).val = win0_2.index t (0 : Fin 3) * 2 + (y 0).val; omega,
      by show win0_1.index t (1 : Fin 3) * 480 + 1 * (y 1).val = (y 1).val; omega,
      by show win0_1.index t (2 : Fin 3) * 640 + 1 * (y 2).val = (y 2).val; omega⟩)
    (by show win0_2.index t (0 : Fin 3) * 2 + 1 * (j 0).val = win0_2.index t (0 : Fin 3) * 2 + (j 0).val; omega)

/-- WHAT POINT t WRITES BACK is block t of `lossArr` of the input arrays as the region finds them. -/
theorem flushed_eq (c : Dev nD) (t : Fin cfg0.N) :
    (dats m 0 c).flushed 2 t = ((cfg0.win 2).blk t).view.read (Elt Ideal) (lossArr (V m c main_v0) (V m c main_v1)) :=
  (flushed_cut m c t).trans (funext fun j =>
    (cut_apply c t (out0_2 (iblk m c 0 t) (iblk m c 1 t)) j).trans
      ((out_block (iblk m c 0 t) (iblk m c 1 t) _).trans
        ((block_at m c t j).trans (read_blk_apply c t (lossArr (V m c main_v0) (V m c main_v1)) j).symm)))

/-- An index of the array is in point t's block iff each coordinate is in the block's range on its axis. -/
theorem mem_blk (t : Fin cfg0.N) (i : S32x1x128.Idx) :
    i ∈ ((cfg0.win 2).blk t).view.set ↔ ∀ a : Fin 3, win0_2.index t a * S2x1x128.size a ≤ (i a).val
      ∧ (i a).val < win0_2.index t a * S2x1x128.size a + S2x1x128.size a := by
  show i ∈ ((View.whole main_v2).slice (win0_2.rect t)).set ↔ _
  rw [View.set_slice_whole, Rect.mem_set_unit]
  exact Iff.rfl

/-- The blocks cover the array: row s is in the block of point s / 2. -/
theorem cover (i : S32x1x128.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 128 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- THE ARRAY after the run is `lossArr` of the input arrays as the region finds them. -/
theorem final (c : Dev nD) : (dats m 0 c).arrAt 2 cfg0.N = lossArr (V m c main_v0) (V m c main_v1) :=
  (dats m 0 c).arrAt_eq_of_cover 2 (lossArr (V m c main_v0) (V m c main_v1)) (fun t _ => flushed_eq m c t) (cover)

/-- The first input array the region finds: the first argument, its unit channel axis dropped. -/
theorem V_main_v0 (c : Dev nD) : (V m c main_v0 : S32x480x640.Idx → EReal)
    = shapeCast S32x480x640 (m ((c : Thread nD τ).loc main_arg0)) shapeCasts_S32x1x480x640_S32x480x640 := by
  show StableHlo.after hostOps0 (fun b => m (c, b)) (Proc.devRef .tc main_v0) = _
  after_results
  rfl

/-- The second, likewise. -/
theorem V_main_v1 (c : Dev nD) : (V m c main_v1 : S32x480x640.Idx → EReal)
    = shapeCast S32x480x640 (m ((c : Thread nD τ).loc main_arg1)) shapeCasts_S32x1x480x640_S32x480x640 := by
  show StableHlo.after hostOps0 (fun b => m (c, b)) (Proc.devRef .tc main_v1) = _
  after_results
  rfl

/-- Dropping the unit channel axis: pixel (s, h, w) is the argument's (s, 0, h, w). -/
theorem drop_channel (X : Vec Ideal S32x1x480x640 .f32) (s : Fin 32) (h : Fin 480) (w : Fin 640) :
    shapeCast S32x480x640 X shapeCasts_S32x1x480x640_S32x480x640 (ix3 s h w) = X (ix4 s (0 : Fin 1) h w) :=
  shapeCast_apply X shapeCasts_S32x1x480x640_S32x480x640 (ix3 s h w) (ix4 s (0 : Fin 1) h w) (by
    rw [Shape.rowMajor_val_four, Shape.rowMajor_val_three]
    show ((s.val * 1 + 0) * 480 + h.val) * 640 + w.val = (s.val * 480 + h.val) * 640 + w.val
    omega)

end Cert.KerArray

end
-- ==== Proof.Mean.lean ====
/- The last two lines of both programs: the mean of the 32 sample losses — their sum from zero, divided by 32.0. Stated
   once, over the bare shapes, so that both programs' results are this one function of their per-sample vectors and the
   mean itself is never opened. -/
import Idealize.ShloMosaic.PureOps.Ideal
import Idealize.ShloMosaic.Lib.ValueIdx

noncomputable section

namespace Cert.Mean

open Idealize.ShloMosaic

/-- The mean over the 32 samples, as both programs spell it. -/
def meanOf (v : FVec Ideal (⟨1, ![32]⟩ : Shape) .f32) : FVec Ideal (⟨0, ![]⟩ : Shape) .f32 :=
  Host.divf (F := Ideal)
    (Host.reduceAdd (F := Ideal) v (constant (F := Ideal) (⟨0, ![]⟩ : Shape) .f32 0x00000000#32)
      (by decide : (⟨1, ![32]⟩ : Shape).ReducesTo [0] (⟨0, ![]⟩ : Shape)) (by decide : 0 < (⟨0, ![]⟩ : Shape).numel))
    (constant (F := Ideal) (⟨0, ![]⟩ : Shape) .f32 0x42000000#32)

end Cert.Mean

end
-- ==== Proof.KerTail.lean ====
/- After the region. The host takes lane 0 of each of the 32 rows of the region's output, as a 32-vector, and means it.
   Row s of the output holds the sample loss of image s at every lane, and the region's input arrays are the arguments
   without their channel axis, so that vector is `kerVec` of the two arguments: entry s the sample loss, in the
   one-logarithm form, of the pixels (s, 0, h, w). The kernel program's result is the mean of `kerVec`, and its argument
   arrays end as they began. -/
import proofs.«168483_j29085518529245_2_alg».proof.Proof.KerArray
import proofs.«168483_j29085518529245_2_alg».proof.Proof.Mean

set_option maxRecDepth 16384

noncomputable section

open Idealize.ShloMosaic Idealize.ShloMosaic.TcCoe Idealize.SL.Sem
open Idealize.ShloMosaic.Pipeline (Dat)

namespace Cert.KerTail

open Cert.KernelIdeal Cert.KernelIdeal.Gen Idealize.ShloMosaic.ValueIdx Cert.LogLoss Cert.KerBody Cert.KerArray Cert.Mean

variable (m : (ℓ : Loc nD τ sig) → Buf (Elt Ideal) ℓ) (ρ : Dev nD → PrngReg)

/-- The coordinate of a rank-1 index, typed by its extent. -/
abbrev lead1 {n : ℕ} (i : (⟨1, ![n]⟩ : Shape).Idx) : Fin n := i 0

/-- The per-sample vector of two argument arrays: entry s is the sample loss of image s, one-logarithm form. -/
def kerVec (a0 a1 : (⟨4, ![32, 1, 480, 640]⟩ : Shape).Idx → EReal) : FVec Ideal (⟨1, ![32]⟩ : Shape) .f32 := fun i =>
  sample ldK (fun h w => a0 (ix4 (lead1 i) (0 : Fin 1) h w)) (fun h w => a1 (ix4 (lead1 i) (0 : Fin 1) h w))

/-- Lane 0 of row b, through the host's slice and reshape. -/
theorem pick_apply (A : Vec Ideal S32x1x128 .f32) (b : Fin 32) :
    shapeCast S32 (extractStridedSlice S32x1x1 ![0, 0, 0] A slices_S32x1x128_S32x1x1_0_0_0) shapeCasts_S32x1x1_S32 (ix1 b)
      = A (ix3 b (0 : Fin 1) (0 : Fin 128)) :=
  (shapeCast_apply (extractStridedSlice S32x1x1 ![0, 0, 0] A slices_S32x1x128_S32x1x1_0_0_0) shapeCasts_S32x1x1_S32 (ix1 b)
      (ix3 b (0 : Fin 1) (0 : Fin 1)) (by
        rw [Shape.rowMajor_val_three, Shape.rowMajor_val_one]
        show (b.val * 1 + 0) * 1 + 0 = b.val
        omega)).trans
    (extractStridedSlice_apply ![0, 0, 0] A slices_S32x1x128_S32x1x1_0_0_0 (ix3 b (0 : Fin 1) (0 : Fin 1))
      (ix3 b (0 : Fin 1) (0 : Fin 128)) (fun a => by
        match a with
        | ⟨0, _⟩ => show b.val = 0 + b.val; omega
        | ⟨1, _⟩ => rfl
        | ⟨2, _⟩ => rfl))

/-- Row b of the region's output, in terms of the arguments. -/
theorem lossArr_row (c : Dev nD) (b : Fin 32) :
    lossArr (V m c main_v0) (V m c main_v1) (ix3 b (0 : Fin 1) (0 : Fin 128))
      = kerVec (m ((c : Thread nD τ).loc main_arg0)) (m ((c : Thread nD τ).loc main_arg1)) (ix1 b) := by
  unfold lossArr kerVec
  rw [V_main_v0, V_main_v1]
  exact congrArg₂ (sample ldK) (funext fun h => funext fun w => drop_channel _ b h w)
    (funext fun h => funext fun w => drop_channel _ b h w)

/-- THE KERNEL PROGRAM'S RESULT as the host lines after the region leave it: the mean of the per-sample vector. -/
theorem tail_value (c : Dev nD) :
    Pipeline.afterTail₀ cfgs (dats m) 0 (V0 m) [hostOps1] c main_v6
      = meanOf (kerVec (m ((c : Thread nD τ).loc main_arg0)) (m ((c : Thread nD τ).loc main_arg1))) := by
  have hw : Pipeline.withArrays (cfgs 0).spec c (V0 m c) (fun w => (dats m 0 c).arrAt w (cfgs 0).N) (Proc.devRef .tc main_v2)
      = lossArr (V m c main_v0) (V m c main_v1) :=
    (Pipeline.withArrays_arr spec0 launch0.win.arr_inj c _ _ 2).trans (final m c)
  unfold Pipeline.afterTail₀
  show StableHlo.after hostOps1 _ (Proc.devRef .tc main_v6) = _
  after_results
  rw [hw]
  show meanOf (fun i => shapeCast S32 (extractStridedSlice S32x1x1 ![0, 0, 0] (lossArr (V m c main_v0) (V m c main_v1))
    slices_S32x1x128_S32x1x1_0_0_0) shapeCasts_S32x1x1_S32 i) = meanOf _
  refine congrArg meanOf (funext fun i => ?_)
  obtain ⟨b, rfl⟩ : ∃ b : Fin 32, i = ix1 b := ⟨i 0, eq_ix1 i⟩
  rw [pick_apply]
  exact lossArr_row m c b

/-- THE KERNEL PROGRAM'S RUN, read: it terminates with its result at the mean of `kerVec` of the arguments and the
    arguments unchanged. -/
theorem run : θ_run defs (onTc (τ := τ) (main (F := Ideal))) ⟨m, fun _ => 0, ρ⟩ fun r => ∀ c : Dev nD,
      r.2.mem ((c : Thread nD τ).loc main_v6)
        = meanOf (kerVec (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v6 (Pipeline.mem_restRefs_of main_v6 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KerTail

end
-- ==== Proof.RefSide.lean ====
/- The reference, sample by sample. Its stages are read one operation at a time by the generated read-at-an-index lemmas;
   what is added here:
   - a flat position k of a sample's 307200 pixels is the pixel (k / 640, k % 640) of its 480 × 640 image, so each of the
     reference's sums over the flat axis is the double sum over rows and columns;
   - the pixel count: the reference adds the mask as 32-bit integers and converts the total, where the loss needs the sum of
     the mask's 0 / 1 values as reals. At most 307200 ones are added, far below 2^31, so nothing wraps and the two agree;
   - the last select, the divisions and the product are then, literally, the score of the three sums. -/
import proofs.«168483_j29085518529245_2_alg».proof.Proof.RefRead
import proofs.«168483_j29085518529245_2_alg».proof.Proof.LogRatio
import Idealize.ShloMosaic.Lib.ValueIdx
import Idealize.ShloMosaic.PureOps.Reduce

noncomputable section

namespace Cert.RefSide

open Cert.ReferenceIdeal Cert.ReferenceIdeal.Gen Cert.ReferenceIdeal.Read Idealize.ShloMosaic Idealize.ShloMosaic.ValueIdx
open Cert.LogLoss Cert.Consts Cert.LibWordCount

/-- The argument arrays' type. -/
abbrev Arr := (⟨S32x1x480x640, .f32⟩ : BufTy).Contents (Elt Ideal)

/-- Flat position k of sample b is pixel (k / 640, k % 640) of that sample's one channel. -/
theorem pix_idx0 (b : Fin 32) (k : Fin 307200) (h1 : k.val / 640 < 480) (h2 : k.val % 640 < 640) :
    idx_main_v0 (idx_main_v22 (ix1 b) k) = ix4 b (0 : Fin 1) (⟨k.val / 640, h1⟩ : Fin 480) (⟨k.val % 640, h2⟩ : Fin 640) := by
  have hb := b.isLt; have hk := k.isLt
  funext a; apply Fin.ext
  match a with
  | ⟨0, _⟩ => show (b.val * 307200 + k.val) / 307200 = b.val; omega
  | ⟨1, _⟩ => rfl
  | ⟨2, _⟩ => show (b.val * 307200 + k.val) / 640 % 480 = k.val / 640; omega
  | ⟨3, _⟩ => show (b.val * 307200 + k.val) % 640 = k.val % 640; omega

theorem pix_idx1 (b : Fin 32) (k : Fin 307200) (h1 : k.val / 640 < 480) (h2 : k.val % 640 < 640) :
    idx_main_v1 (idx_main_v22 (ix1 b) k) = ix4 b (0 : Fin 1) (⟨k.val / 640, h1⟩ : Fin 480) (⟨k.val % 640, h2⟩ : Fin 640) :=
  pix_idx0 b k h1 h2

/-- One pixel of the masked log-difference array. -/
theorem pix (x0 x1 : Arr) (j : S32x307200.Idx) :
    val_main_v13 (F := Ideal) x0 x1 j = ldR (x0 (idx_main_v0 j)) (x1 (idx_main_v1 j)) := by
  simp only [val_main_v13_apply, val_main_v12_apply, val_main_v7_apply, val_main_v11_apply, val_main_v6_apply,
    val_main_v10_apply, val_main_v4_apply, val_main_v8_apply, val_main_v3_apply, val_main_v0_apply, val_main_v1_apply,
    val_main_v2_apply, val_main_cst_apply, val_main_call0_v1_apply, val_main_call0_v0_apply, val_main_cst_0_apply,
    val_main_v5_apply, val_main_cst_1_apply, val_main_call1_v1_apply, val_main_call1_v0_apply, val_main_cst_2_apply,
    val_main_v9_apply, val_main_cst_3_apply, val_main_call2_v1_apply, val_main_call2_v0_apply, val_main_cst_4_apply]
  rfl

/-- One pixel of the mask as a 32-bit word. -/
theorem mask_word (x1 : Arr) (j : S32x307200.Idx) :
    val_main_v14 (F := Ideal) x1 j = maskW (x1 (idx_main_v1 j)) := by
  simp only [val_main_v14_apply, val_main_v3_apply, val_main_v1_apply, val_main_v2_apply, val_main_cst_apply]
  rfl

/-- The sum of the log-differences of sample b. -/
theorem sum_ld (x0 x1 : Arr) (b : Fin 32) :
    val_main_v22 (F := Ideal) x0 x1 (ix1 b)
      = ∑ w : Fin 640, ∑ h : Fin 480, ldR (x0 (ix4 b (0 : Fin 1) h w)) (x1 (ix4 b (0 : Fin 1) h w)) := by
  rw [val_main_v22_apply, val_main_cst_7_apply]
  show Ideal.ofBits .f32 0x00000000#32 + _ = _
  rw [ofBits_zero, zero_add]
  refine sum_flat 480 640 307200 rfl (by norm_num) _
    (fun h w => ldR (x0 (ix4 b (0 : Fin 1) h w)) (x1 (ix4 b (0 : Fin 1) h w))) fun k h1 h2 => ?_
  rw [pix, pix_idx0 b k h1 h2, pix_idx1 b k h1 h2]

/-- The sum of their squares. -/
theorem sum_sq (x0 x1 : Arr) (b : Fin 32) :
    val_main_v20 (F := Ideal) x0 x1 (ix1 b)
      = ∑ w : Fin 640, ∑ h : Fin 480, ldR (x0 (ix4 b (0 : Fin 1) h w)) (x1 (ix4 b (0 : Fin 1) h w))
          * ldR (x0 (ix4 b (0 : Fin 1) h w)) (x1 (ix4 b (0 : Fin 1) h w)) := by
  rw [val_main_v20_apply, val_main_cst_6_apply]
  show Ideal.ofBits .f32 0x00000000#32 + _ = _
  rw [ofBits_zero, zero_add]
  refine sum_flat 480 640 307200 rfl (by norm_num) _
    (fun h w => ldR (x0 (ix4 b (0 : Fin 1) h w)) (x1 (ix4 b (0 : Fin 1) h w))
      * ldR (x0 (ix4 b (0 : Fin 1) h w)) (x1 (ix4 b (0 : Fin 1) h w))) fun k h1 h2 => ?_
  rw [val_main_v19_apply, pix, pix_idx0 b k h1 h2, pix_idx1 b k h1 h2]
  rfl

/-- The pixel count of sample b, converted: the integer total does not wrap, so it is the sum of the mask's values. -/
theorem count (x1 : Arr) (b : Fin 32) :
    val_main_v16 (F := Ideal) x1 (ix1 b) = ∑ w : Fin 640, ∑ h : Fin 480, maskF (x1 (ix4 b (0 : Fin 1) h w)) := by
  rw [val_main_v16_apply]
  show (((val_main_v15 (F := Ideal) x1 (ix1 b)).toInt : ℝ) : EReal) = _
  unfold val_main_v15
  rw [Host.reduce_eq_fold_single IntOp.addi _ _ reducesTo_S32x307200_S32_d1 (by decide : S32x307200.Reduces [1] S32) h_S_ (ix1 b)]
  rw [show val_main_c (F := Ideal) (Shape.Idx.first h_S_) = 0#32 from rfl]
  rw [toInt_fold_addi _ _ (fun k => by
        show (val_main_v14 (F := Ideal) x1 _).toNat ≤ 1
        rw [mask_word]; exact maskW_le _)
      (by rw [Finset.card_univ, Fintype.card_fin]; decide),
    Int.cast_sum, coe_sum]
  refine sum_flat 480 640 _ rfl (by norm_num) _ (fun h w => maskF (x1 (ix4 b (0 : Fin 1) h w))) fun k h1 h2 => ?_
  show ((((val_main_v14 (F := Ideal) x1 _).toInt : ℤ) : ℝ) : EReal) = _
  rw [mask_word]
  unfold maskF
  have e : (by decide : S32x307200.Reduces [1] S32).lift (ix1 b) k = idx_main_v22 (ix1 b) ⟨k.val, k.isLt⟩ :=
    funext fun a => Fin.ext (by match a with | ⟨0, _⟩ => rfl | ⟨1, _⟩ => rfl)
  rw [e, pix_idx1 b ⟨k.val, k.isLt⟩ h1 h2]

/-- THE REFERENCE'S PER-SAMPLE VECTOR: entry b is the sample loss of image b, in the difference-of-logarithms form. -/
theorem ref_sample (x0 x1 : Arr) (b : Fin 32) :
    val_main_v30 (F := Ideal) x0 x1 (ix1 b)
      = sample ldR (fun h w => x0 (ix4 b (0 : Fin 1) h w)) (fun h w => x1 (ix4 b (0 : Fin 1) h w)) := by
  rw [val_main_v30_apply, val_main_v29_apply, val_main_v27_apply, val_main_v21_apply, val_main_v26_apply,
    val_main_v25_apply, val_main_v23_apply, val_main_v18_apply, sum_ld, sum_sq, count]
  simp only [val_main_v28_apply, val_main_cst_9_apply, val_main_v17_apply, val_main_cst_5_apply, val_main_v24_apply,
    val_main_cst_8_apply, val_main_call3_v1_apply, val_main_call3_v0_apply, val_main_cst_10_apply]
  rfl

end Cert.RefSide

end
-- ==== Proof.Bridge.lean ====
/- The two programs meet. The reference's per-sample vector is, entry by entry, the sample loss in the
   difference-of-logarithms form; the kernel program's is the same loss in the one-logarithm form; on arrays of real numbers
   the two forms are one function, so the vectors are equal, and both programs return the same mean of them. -/
import proofs.«168483_j29085518529245_2_alg».proof.Proof.RefSide
import proofs.«168483_j29085518529245_2_alg».proof.Proof.KerTail
import proofs.«168483_j29085518529245_2_alg».proof.Proof.Mean

noncomputable section

namespace Cert.Bridge

open Cert.ReferenceIdeal Cert.ReferenceIdeal.Gen Cert.ReferenceIdeal.Read Idealize.ShloMosaic Idealize.ShloMosaic.ValueIdx
open Cert.LogLoss Cert.RefSide Cert.KerTail Cert.Mean

/-- On real arrays the reference's per-sample vector is the kernel program's. -/
theorem ref_vec (x0 x1 : Arr) (h0 : ∀ i, ∃ r : ℝ, x0 i = (r : EReal)) (h1 : ∀ i, ∃ r : ℝ, x1 i = (r : EReal)) :
    val_main_v30 (F := Ideal) x0 x1 = kerVec x0 x1 := by
  funext i
  obtain ⟨b, rfl⟩ : ∃ b : Fin 32, i = ix1 b := ⟨i 0, eq_ix1 i⟩
  rw [ref_sample]
  exact (sample_congr _ _ (fun h w => h0 _) (fun h w => h1 _)).symm

/-- So the reference's result is the mean of that vector. -/
theorem ref_value (x0 x1 : Arr) (h0 : ∀ i, ∃ r : ℝ, x0 i = (r : EReal)) (h1 : ∀ i, ∃ r : ℝ, x1 i = (r : EReal)) :
    val_main_v32 (F := Ideal) x0 x1 = meanOf (kerVec x0 x1) := by
  rw [← ref_vec x0 x1 h0 h1]
  rfl

end Cert.Bridge

end
-- ==== Proof.LibFiniteAll.lean ====
/-
  A general lemma, for a float array of any shape at the extended reals: when the reduction "all entries have absolute
  value strictly below +∞" comes out 1, every entry of the array is a real number. The test takes |x| entry by entry
  (max x (-x)), compares it with +∞ (the pattern 0x7F800000), strictly below, and folds the results with "and" from 1
  over all axes. The fold being 1, every entry's comparison is 1, so max (x i) (-(x i)) < ⊤, so x i is neither ⊤ nor
  ⊥: it is a real number.
-/
import Idealize.ShloMosaic.PureOps.Ideal
import Idealize.ShloMosaic.Lib.ValueIdx
import Idealize.ShloMosaic.Lib.ReduceAll

noncomputable section

namespace Cert.Lib.FiniteAll

open Idealize.ShloMosaic Idealize.ShloMosaic.ValueIdx

/-- The shape with no axes has one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- The all-of test of one array: when it comes out 1, every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt (x i) (Host.reduce_andi_all _ _ hr hu ix0 e i)

end Cert.Lib.FiniteAll

end
-- ==== Proof.Finite.lean ====
/- The precondition, decoded. `finite_inputs` is the conjunction of two all-of tests, one per argument array: every
   entry's absolute value strictly below +∞. When it holds, every entry of both arrays is a real number — which is what
   the law joining the kernel's one logarithm to the reference's two needs. -/
import proofs.«168483_j29085518529245_2_alg».proof.Pre_finite_inputs
import proofs.«168483_j29085518529245_2_alg».proof.Proof.LibFiniteAll
import Idealize.ShloMosaic.Lib.Affine

noncomputable section

namespace Cert.Finite

open Idealize.ShloMosaic Idealize.ShloMosaic.ValueIdx Cert.Lib.FiniteAll

/-- Under the precondition both argument arrays hold real numbers only. -/
theorem reals_of_pre [Cert.Pre_finite_inputs.Facts] (a0 a1 : FVec Ideal Cert.Pre_finite_inputs.S32x1x480x640 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨e0, e1⟩ := IntOp.andi_eq_one.1 h0
  exact ⟨fun i => real_of_all a0 _ _ _ e0 i, fun i => real_of_all a1 _ _ _ e1 i⟩

end Cert.Finite

end
-- ==== Proof.lean ====
/- A masked, scale-invariant log loss over 32 single-channel 480 × 640 images, as a kernel and as a jnp reference: per image,
   with the mask "target > 0" and a guard ε, the pixel value ld, its sums s = Σ ld, ss = Σ ld², the pixel count n, and the
   sample loss ss / max(n, 1) - (1/2 · s / max(n, 1)) · (s / max(n, 1)) (zero for an empty mask); the result is the mean of
   the 32 sample losses.
   The two programs differ in three ways, none of which the extended reals see:
   - the kernel takes ONE logarithm of the guarded quotient (p + ε) / (t + ε) where the reference subtracts two logarithms.
     On the mask t + ε is a positive real, so for p + ε > 0 the two agree by log (a / b) = log a - log b, and for p + ε ≤ 0
     both are -∞; off the mask both are 0. This needs p and t real: it is where the precondition is used.
   - the kernel sums each image down its rows and then along its columns, two images per grid point; the reference sums the
     flattened 307200 pixels. Addition on the extended reals is commutative and associative.
   - the kernel counts the mask by adding 0.0 / 1.0; the reference adds 32-bit integers and converts. There are at most
     307200 ones, so the integer sum does not wrap.
   The frames of the two kernel programs are the generated ones; the reference's frame is its run with the result dropped;
   the idealization rewrote nothing. -/
import proofs.«168483_j29085518529245_2_alg».proof.Defs
import proofs.«168483_j29085518529245_2_alg».proof.Proof.Gen.Kernel
import proofs.«168483_j29085518529245_2_alg».proof.Proof.Gen.Kernel.Skeleton
import proofs.«168483_j29085518529245_2_alg».proof.Proof.Gen.Kernel.Launch
import proofs.«168483_j29085518529245_2_alg».proof.Proof.Gen.Kernel.Points
import proofs.«168483_j29085518529245_2_alg».proof.Proof.Gen.Kernel.Frame
import proofs.«168483_j29085518529245_2_alg».proof.Proof.Gen.KernelIdeal
import proofs.«168483_j29085518529245_2_alg».proof.Proof.Gen.KernelIdeal.Skeleton
import proofs.«168483_j29085518529245_2_alg».proof.Proof.Gen.KernelIdeal.Launch
import proofs.«168483_j29085518529245_2_alg».proof.Proof.Gen.KernelIdeal.Points
import proofs.«168483_j29085518529245_2_alg».proof.Proof.Gen.KernelIdeal.Frame
import proofs.«168483_j29085518529245_2_alg».proof.Proof.Gen.ReferenceIdeal
import proofs.«168483_j29085518529245_2_alg».proof.Proof.Gen.Pre_finite_inputs
import proofs.«168483_j29085518529245_2_alg».proof.Proof.RefRun
import proofs.«168483_j29085518529245_2_alg».proof.Proof.RefRead
import proofs.«168483_j29085518529245_2_alg».proof.Proof.KerTail
import proofs.«168483_j29085518529245_2_alg».proof.Proof.Bridge
import proofs.«168483_j29085518529245_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the mean of one per-sample vector of the arguments: the kernel program by its run read
    through the region and the host lines after it, the reference by its run read stage by stage, the two vectors equal
    because the precondition makes every entry of both arguments real. -/
theorem algebraic : Cert.algebraic_KernelIdeal_ReferenceIdeal := by
  intro m ρ m' ρ' hpre hagree
  refine ⟨fun c => Cert.Mean.meanOf (Cert.KerTail.kerVec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KerTail.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Finite.reals_of_pre _ _ (hpre c)
  rw [Cert.ReferenceIdeal.Read.val_main_v32_eq, (hagree c).1, (hagree c).2]
  exact Cert.Bridge.ref_value _ _ h0 h1

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
